-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S8192x8192 : Shape := ⟨2, ![8192, 8192]⟩
abbrev S16x16 : Shape := ⟨2, ![16, 16]⟩
abbrev S8192 : Shape := ⟨1, ![8192]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S16x16 : S_.BroadcastsInDim S16x16 (![] : Fin 0 → Fin S16x16.rank)
  reducesTo_S16x16_S_d0_1 : S16x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x16 .f32) (main_arg1 : FVec F S8192x8192 .f32) (main_arg2 : FVec F S8192x8192 .f32) (main_arg3 : FVec F S16x16 .f32) (main_arg4 : FVec F S8192 .f32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_v13 main_v16
-- ==== Kernel.lean ====
abbrev S8192x16 : Shape := ⟨2, ![8192, 16]⟩
abbrev S8192x8192 : Shape := ⟨2, ![8192, 8192]⟩
abbrev S16x16 : Shape := ⟨2, ![16, 16]⟩
abbrev S8192 : Shape := ⟨1, ![8192]⟩
abbrev S512x8192 : Shape := ⟨2, ![512, 8192]⟩
abbrev S512x16 : Shape := ⟨2, ![512, 16]⟩
abbrev S8192x1 : Shape := ⟨2, ![8192, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x16, .f32⟩
  | .hbm, ⟨1, _⟩ => ⟨S8192x8192, .f32⟩
  | .hbm, ⟨2, _⟩ => ⟨S8192x8192, .f32⟩
  | .hbm, ⟨3, _⟩ => ⟨S16x16, .f32⟩
  | .hbm, ⟨4, _⟩ => ⟨S8192, .f32⟩
  | .hbm, ⟨5, _⟩ => ⟨S8192x16, .f32⟩
  | .hbm, ⟨6, _⟩ => ⟨S8192x16, .bf16⟩
  | .hbm, ⟨7, _⟩ => ⟨S8192x16, .f32⟩
  | .hbm, ⟨8, _⟩ => ⟨S8192x1, .f32⟩
  | .hbm, ⟨9, _⟩ => ⟨S8192x16, .f32⟩
  | .hbm, ⟨10, _⟩ => ⟨S8192x16, .f32⟩
  | .hbm, ⟨11, _⟩ => ⟨S8192x16, .bf16⟩
  | .hbm, ⟨12, _⟩ => ⟨S8192x16, .f32⟩
  | .local _ .vmem, ⟨0, _⟩ => ⟨S512x8192, .f32⟩
  | .local _ .vmem, ⟨1, _⟩ => ⟨S512x8192, .f32⟩
  | .local _ .vmem, ⟨2, _⟩ => ⟨S8192x16, .bf16⟩
  | .local _ .vmem, ⟨3, _⟩ => ⟨S512x16, .f32⟩
  | .local _ .vmem, ⟨4, _⟩ => ⟨S512x16, .f32⟩
  | .local _ .vmem, ⟨5, _⟩ => ⟨S512x8192, .f32⟩
  | .local _ .vmem, ⟨6, _⟩ => ⟨S512x8192, .f32⟩
  | .local _ .vmem, ⟨7, _⟩ => ⟨S8192x16, .bf16⟩
  | .local _ .vmem, ⟨8, _⟩ => ⟨S512x16, .f32⟩
  | .local _ .vmem, ⟨9, _⟩ => ⟨S512x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S512x8192_S512x8192_0_0 : ∀ a, (![0, 0] : Fin 2 → Nat) a + S512x8192.size a ≤ S512x8192.size a
  h_S512x8192 : 0 < S512x8192.numel
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S512x16_S512x16_0_0 : ∀ a, (![0, 0] : Fin 2 → Nat) a + S512x16.size a ≤ S512x16.size a
  h_S512x16 : 0 < S512x16.numel
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  dot_S8192x16_S16x16_S8192x16_1_0_0_1_n_n_wf : DotDims.WF S8192x16 S16x16 S8192x16 [1] [0] [0] [1] [] []
  dot_S512x8192_S8192x16_S512x16_1_0_0_1_n_n_wf : DotDims.WF S512x8192 S8192x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S8192x16.size a
  hwx0_1 : ∀ i : grid0.Coords, EltTy.bits .bf16 = 32 ∨ (Rect.block (s := S8192x16) S8192x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S8192x16.size a
  hwx0_2 : ∀ i : grid0.Coords, EltTy.bits .f32 = 32 ∨ (Rect.block (s := S8192x16) S512x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .f32 = 32 ∨ (Rect.block (s := S8192x8192) S512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S8192x16.size a
  hwx1_1 : ∀ i : grid1.Coords, EltTy.bits .bf16 = 32 ∨ (Rect.block (s := S8192x16) S8192x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x16.size a ≤ S8192x16.size a
  hwx1_2 : ∀ i : grid1.Coords, EltTy.bits .f32 = 32 ∨ (Rect.block (s := S8192x16) S512x16.size (cc1_transform_2 i) (hinb1_2 i)).WholeWords (EltTy.packing .f32)

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S512x8192_S8192x16_S512x16_1_0_0_1_n_n : DotDims S512x8192 S8192x16 S512x16 where
  lhsContracting := [1]
  rhsContracting := [0]
  lhsNonContracting := [0]
  rhsNonContracting := [1]
  lhsBatch := []
  rhsBatch := []
  wf := dot_S512x8192_S8192x16_S512x16_1_0_0_1_n_n_wf

abbrev win0_0 : Pipeline.Window sig grid0 :=
  Pipeline.Window.ofSpec (Memref.whole main_arg2) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x16 : Shape := ⟨2, ![8192, 16]⟩
abbrev S8192x8192 : Shape := ⟨2, ![8192, 8192]⟩
abbrev S16x16 : Shape := ⟨2, ![16, 16]⟩
abbrev S8192 : Shape := ⟨1, ![8192]⟩
abbrev S1x8192 : Shape := ⟨2, ![1, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x8192, .f32⟩
  | .hbm, ⟨2, _⟩ => ⟨S8192x8192, .f32⟩
  | .hbm, ⟨3, _⟩ => ⟨S16x16, .f32⟩
  | .hbm, ⟨4, _⟩ => ⟨S8192, .f32⟩
  | .hbm, ⟨5, _⟩ => ⟨S8192x16, .f32⟩
  | .hbm, ⟨6, _⟩ => ⟨S8192x16, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x16_S16x16_S8192x16_1_0_0_1_n_n_wf : DotDims.WF S8192x16 S16x16 S8192x16 [1] [0] [0] [1] [] []
  dot_S8192x8192_S8192x16_S8192x16_1_0_0_1_n_n_wf : DotDims.WF S8192x8192 S8192x16 S8192x16 [1] [0] [0] [1] [] []

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.WaveletSpec.lean ====
/-
  The mathematics of the layer, with no program in sight.

  X is the feature matrix [8192, 16], W the weight matrix [16, 16], A the wavelet matrix and B its inverse
  (both [8192, 8192]), f the diagonal filter [8192]. The layer is

      T = X · W,      S = B · T,      out = A · diag(f) · S.

  The last product can be bracketed two ways. Scaling the COLUMNS of A by f first gives
      out[i, c] = Σ_k (A[i, k] · f[k]) · S[k, c];
  scaling the ROWS of S by f first gives
      out[i, c] = Σ_k A[i, k] · (f[k] · S[k, c]).
  Term by term the two agree by associativity of the product. On the extended reals the product is a
  commutative monoid with zero, so associativity holds at every entry, infinite ones included: nothing
  here asks an input to be finite, and no sum is rearranged.
-/
import Idealize.ShloMosaic.PureOps.Ideal
import Idealize.ShloMosaic.Lib.ValueIdx

noncomputable section

namespace Cert.Wavelet

open Idealize.ShloMosaic Idealize.ShloMosaic.ValueIdx

/-- nodes × channels -/
abbrev Snc : Shape := ⟨2, ![8192, 16]⟩
/-- nodes × nodes -/
abbrev Snn : Shape := ⟨2, ![8192, 8192]⟩
/-- channels × channels -/
abbrev Scc : Shape := ⟨2, ![16, 16]⟩
/-- nodes -/
abbrev Sn : Shape := ⟨1, ![8192]⟩

/-- T = X · W: entry (j, c) sums X[j, l] · W[l, c] over the 16 input channels l. -/
def transformed (x : Snc.Idx → EReal) (w : Scc.Idx → EReal) : Snc.Idx → EReal :=
  fun i => ∑ l : Fin 16, x (ix2 (i 0) l) * w (ix2 l (i 1))

/-- A node-by-node matrix times a node-by-channel one: entry (i, c) sums a[i, k] · b[k, c] over the 8192 nodes k. -/
def nodeMul (a : Snn.Idx → EReal) (b : Snc.Idx → EReal) : Snc.Idx → EReal :=
  fun i => ∑ k : Fin 8192, a (ix2 (i 0) k) * b (ix2 k (i 1))

/-- diag(f) · S: row k of S scaled by f[k]. -/
def scaleRows (f : Sn.Idx → EReal) (s : Snc.Idx → EReal) : Snc.Idx → EReal :=
  fun j => f (ix1 (j 0)) * s j

/-- A · diag(f): column k of A scaled by f[k]. -/
def scaleCols (a : Snn.Idx → EReal) (f : Sn.Idx → EReal) : Snn.Idx → EReal :=
  fun j => a j * f (ix1 (j 1))

/-- The layer with the filter applied to the rows of S = B · (X · W). -/
def layer (x : Snc.Idx → EReal) (a b : Snn.Idx → EReal) (w : Scc.Idx → EReal) (f : Sn.Idx → EReal) : Snc.Idx → EReal :=
  nodeMul a (scaleRows f (nodeMul b (transformed x w)))

/-- The layer with the filter applied to the columns of A. -/
def layerCols (x : Snc.Idx → EReal) (a b : Snn.Idx → EReal) (w : Scc.Idx → EReal) (f : Sn.Idx → EReal) : Snc.Idx → EReal :=
  nodeMul (scaleCols a f) (nodeMul b (transformed x w))

/-- (A · diag f) · S = A · (diag f · S), entry by entry and term by term: (A[i,k] · f[k]) · S[k,c] = A[i,k] · (f[k] · S[k,c]). -/
theorem layerCols_eq (x : Snc.Idx → EReal) (a b : Snn.Idx → EReal) (w : Scc.Idx → EReal) (f : Sn.Idx → EReal) :
    layerCols x a b w f = layer x a b w f := by
  funext i
  unfold layerCols layer
  generalize nodeMul b (transformed x w) = s
  unfold nodeMul scaleCols scaleRows
  exact Finset.sum_congr rfl fun k _ => mul_assoc _ _ _

end Cert.Wavelet

end
-- ==== Proof.KernelRun.lean ====
/-
  The kernel's run with its result named.

  The program is two launches of the block product among two stretches of host operations. The contents of the
  TensorCore's buffers at each boundary are a fold from the launch memory: after the first stretch, after the
  first launch's write-backs, after the second stretch, after the second launch's write-backs. Every weakly fair
  execution terminates without a fault and ends with every unscoped buffer at the last of these. Read at the
  result buffer that is the statement below; read at an argument it is the launch contents, since no host
  operation and no launch writes an argument.
-/
import proofs.«143403_j67516885893333_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's
    contents and the five arguments as launched. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Named

end
-- ==== Proof.BlockProduct.lean ====
/-
  One block of a node-by-node matrix times the whole node-by-channel operand.

  The kernel body reads a block a of 512 rows of the big matrix (all 8192 columns) and the whole operand b
  (8192 rows, 16 channels), and stores their product accumulated into zero. Read at row r and channel q of the
  block, and with floats as extended reals (a change of float format is then the identity, and the zero
  accumulator adds nothing), that stored value is

      Σ_k a[r, k] · b[k, q]        over the 8192 nodes k.

  Both launches of the body compute this same term, so one lemma serves both.
-/
import proofs.«143403_j67516885893333_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's index at output (r, q) and contraction k has row r. -/
theorem lhs_row (i : S512x16.Idx) (p : dot_S512x8192_S8192x16_S512x16_1_0_0_1_n_n.contr.Idx) :
    (dot_S512x8192_S8192x16_S512x16_1_0_0_1_n_n.lhsIdx i p 0).val = (i 0).val := by
  unfold DotDims.lhsIdx
  rw [dif_neg (show ¬(0 : Fin S512x8192.rank) ∈ dot_S512x8192_S8192x16_S512x16_1_0_0_1_n_n.lhsBatch by decide),
    dif_pos (show (0 : Fin S512x8192.rank) ∈ dot_S512x8192_S8192x16_S512x16_1_0_0_1_n_n.lhsNonContracting by decide)]
  rfl

/-- … and column the contracted node. -/
theorem lhs_col (i : S512x16.Idx) (p : dot_S512x8192_S8192x16_S512x16_1_0_0_1_n_n.contr.Idx) :
    (dot_S512x8192_S8192x16_S512x16_1_0_0_1_n_n.lhsIdx i p 1).val = (p ⟨0, by decide⟩).val :=
  dot_S512x8192_S8192x16_S512x16_1_0_0_1_n_n.lhsIdx_val_of_single rfl i p

/-- The right operand's index there has row the contracted node … -/
theorem rhs_row (i : S512x16.Idx) (p : dot_S512x8192_S8192x16_S512x16_1_0_0_1_n_n.contr.Idx) :
    (dot_S512x8192_S8192x16_S512x16_1_0_0_1_n_n.rhsIdx i p 0).val = (p ⟨0, by decide⟩).val :=
  dot_S512x8192_S8192x16_S512x16_1_0_0_1_n_n.rhsIdx_val_of_single rfl i p

/-- … and column the output's channel q. -/
theorem rhs_col (i : S512x16.Idx) (p : dot_S512x8192_S8192x16_S512x16_1_0_0_1_n_n.contr.Idx) :
    (dot_S512x8192_S8192x16_S512x16_1_0_0_1_n_n.rhsIdx i p 1).val = (i 1).val := by
  unfold DotDims.rhsIdx
  rw [dif_neg (show ¬(1 : Fin S8192x16.rank) ∈ dot_S512x8192_S8192x16_S512x16_1_0_0_1_n_n.rhsBatch by decide),
    dif_pos (show (1 : Fin S8192x16.rank) ∈ dot_S512x8192_S8192x16_S512x16_1_0_0_1_n_n.rhsNonContracting by decide)]
  rfl

/-- The body's stored value at entry j = (r, q) of the block is Σ_k a[r, k] · b[k, q]. -/
theorem stored_apply (a : Vec Ideal S512x8192 .f32) (b : Vec Ideal S8192x16 .bf16) (j : S512x16.Idx) :
    k0_pay1 (F := Ideal) a b j = ∑ k : Fin 8192, a (ix2 (j 0) k) * b (ix2 k (j 1)) := by
  unfold k0_pay1
  simp only [matmul]
  rw [shapeCast_self, Ideal.matmul_constant_zero_apply,
    ← Equiv.sum_comp (contrEquiv1 dot_S512x8192_S8192x16_S512x16_1_0_0_1_n_n 8192 rfl rfl).symm]
  refine Finset.sum_congr rfl fun k _ => ?_
  have hk := contrEquiv1_symm_val dot_S512x8192_S8192x16_S512x16_1_0_0_1_n_n 8192 rfl rfl k
  have el : dot_S512x8192_S8192x16_S512x16_1_0_0_1_n_n.lhsIdx j
      ((contrEquiv1 dot_S512x8192_S8192x16_S512x16_1_0_0_1_n_n 8192 rfl rfl).symm k) = ix2 (j 0) k := funext fun d => Fin.ext (by
    match d with
    | ⟨0, _⟩ => exact lhs_row _ _
    | ⟨1, _⟩ => exact (lhs_col _ _).trans hk)
  have er : dot_S512x8192_S8192x16_S512x16_1_0_0_1_n_n.rhsIdx j
      ((contrEquiv1 dot_S512x8192_S8192x16_S512x16_1_0_0_1_n_n 8192 rfl rfl).symm k) = ix2 k (j 1) := funext fun d => Fin.ext (by
    match d with
    | ⟨0, _⟩ => exact (rhs_row _ _).trans hk
    | ⟨1, _⟩ => exact rhs_col _ _)
  rw [el, er]
  rfl

/-- The second launch's body stores the same term. -/
theorem stored_apply' (a : Vec Ideal S512x8192 .f32) (b : Vec Ideal S8192x16 .bf16) (j : S512x16.Idx) :
    k1_pay1 (F := Ideal) a b j = ∑ k : Fin 8192, a (ix2 (j 0) k) * b (ix2 k (j 1)) :=
  stored_apply a b j

end Cert.KernelIdeal.BlockProduct

end
-- ==== Proof.Blocks.lean ====
/-
  From blocks to the whole array, for each of the two launches.

  A launch runs the body at 16 grid points. At point t the body sees rows 512·t … 512·t + 511 of the big
  node-by-node matrix (all 8192 columns) and the whole node-by-channel operand, and writes rows
  512·t … 512·t + 511 of the result. Entry (r, q) of what it writes is Σ_k big[512·t + r, k] · operand[k, q],
  which is entry (512·t + r, q) of the full product. The 16 row blocks tile the 8192 rows, so after the launch
  the result array holds the full product of the two arrays as the launch found them.

  Both statements are about ANY contents of the buffers at the launch's entry; what those contents are for each
  launch is read off the host operations elsewhere.
-/
import proofs.«143403_j67516885893333_2_alg».proof.Proof.Gen.KernelIdeal.Frame
import proofs.«143403_j67516885893333_2_alg».proof.Proof.BlockProduct
import proofs.«143403_j67516885893333_2_alg».proof.Proof.WaveletSpec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Wavelet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's three accesses all start at the block's origin. -/
theorem hz : (![0, 0] : Fin 2 → Nat) = fun _ => 0 := funext fun a => by fin_cases a <;> rfl

/-! ## Launch 0: block t of the result is rows 512·t … 512·t + 511 of the product -/

/-- The printed index maps over the 16 grid points: the big matrix's block and the result's block are both at row
    block t, column block 0; the small operand is taken whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the big matrix and the small operand as the launch
    finds them: entry (r, q) of the block sums, over the nodes k, row 512·t + r of the big matrix against
    column q of the operand. -/
theorem flushed0 (c : Dev nD) (t : Fin cfg0.N) :
    (dat0 V c).flushed 2 t = ((cfg0.win 2).blk t).view.read (Elt Ideal) (nodeMul (V c main_arg2) (V c main_v1)) := by
  show (cfg0.win 2).cut (grid0.coords t) ((dat0 V c).after 2 t) = _
  rw [after0_2]
  unfold out0_2
  rw [View.canon_unit_zero hz]
  simp only [View.ld_unit_zero (S := S512x8192) hz, View.ld_unit_zero (S := S8192x16) hz]
  obtain ⟨e0, e1, e2, e3, e4, e5⟩ := idx_facts0 t
  funext j
  show k0_pay1 (F := Ideal) (iblk0 V c 0 t) (iblk0 V c 1 t) j
    = nodeMul (V c main_arg2) (V c main_v1) (((cfg0.win 2).blk t).view.emb j)
  refine (BlockProduct.stored_apply (iblk0 V c 0 t) (iblk0 V c 1 t) j).trans ?_
  unfold nodeMul
  refine Finset.sum_congr rfl fun k _ => ?_
  have hj0 : (j 0).val < 512 := (j 0).isLt
  have hj1 : (j 1).val < 16 := (j 1).isLt
  have hk : k.val < 8192 := k.isLt
  have ha : iblk0 V c 0 t (ix2 (j 0) k) = V c main_arg2 (ix2 ((((cfg0.win 2).blk t).view.emb j) 0) k) := by
    show V c main_arg2 (((cfg0.win 0).blk t).view.emb (ix2 (j 0) k)) = _
    refine congrArg (V c main_arg2) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 8192 + 1 * k.val = k.val; omega
  have hb : iblk0 V c 1 t (ix2 k (j 1)) = V c main_v1 (ix2 k ((((cfg0.win 2).blk t).view.emb j) 1)) := by
    show V c main_v1 (((cfg0.win 1).blk t).view.emb (ix2 k (j 1))) = _
    refine congrArg (V c main_v1) (funext fun a => Fin.ext ?_)
    match a with
    | ⟨0, _⟩ => show win0_1.index t (0 : Fin 2) * 8192 + 1 * k.val = k.val; omega
    | ⟨1, _⟩ => show win0_1.index t (1 : Fin 2) * 16 + 1 * (j 1).val = win0_2.index t (1 : Fin 2) * 16 + 1 * (j 1).val; omega
  rw [ha, hb]

/-- An index of the result is in point t's block iff each coordinate is in the block's range on its axis. -/
theorem mem_blk0 (t : Fin cfg0.N) (i : S8192x16.Idx) :
    i ∈ ((cfg0.win 2).blk t).view.set ↔ ∀ a : Fin 2, win0_2.index t a * S512x16.size a ≤ (i a).val ∧ (i a).val < win0_2.index t a * S512x16.size a + S512x16.size a := by
  show i ∈ ((View.whole main_v2).slice (win0_2.rect t)).set ↔ _
  rw [View.set_slice_whole, Rect.mem_set_unit]
  exact Iff.rfl

/-- The 16 blocks of 512 rows tile the 8192 rows: row i is in block i / 512. -/
theorem cover0 (i : S8192x16.Idx) : ∃ t : Fin cfg0.N, (cfg0.win 2).flush t = true ∧ i ∈ ((cfg0.win 2).blk t).view.set := by
  have hi0 : (i 0).val < 8192 := (i 0).isLt
  have hi1 : (i 1).val < 16 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 16 ≤ (i 1).val ∧ (i 1).val < win0_2.index t (1 : Fin 2) * 16 + 16; omega

/-- So after the launch the result array holds the whole product. -/
theorem array0 (c : Dev nD) : (dat0 V c).arrAt 2 cfg0.N = nodeMul (V c main_arg2) (V c main_v1) :=
  (dat0 V c).arrAt_eq_of_cover 2 (nodeMul (V c main_arg2) (V c main_v1)) (fun t _ => flushed0 V c t) cover0

/-! ## Launch 1: block t of the result is rows 512·t … 512·t + 511 of the product -/

/-- The printed index maps over the 16 grid points: the big matrix's block and the result's block are both at row
    block t, column block 0; the small operand is taken whole at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the big matrix and the small operand as the launch
    finds them: entry (r, q) of the block sums, over the nodes k, row 512·t + r of the big matrix against
    column q of the operand. -/
theorem flushed1 (c : Dev nD) (t : Fin cfg1.N) :
    (dat1 V c).flushed 2 t = ((cfg1.win 2).blk t).view.read (Elt Ideal) (nodeMul (V c main_arg1) (V c main_v6)) := by
  show (cfg1.win 2).cut (grid1.coords t) ((dat1 V c).after 2 t) = _
  rw [after1_2]
  unfold out1_2
  rw [View.canon_unit_zero hz]
  simp only [View.ld_unit_zero (S := S512x8192) hz, View.ld_unit_zero (S := S8192x16) hz]
  obtain ⟨e0, e1, e2, e3, e4, e5⟩ := idx_facts1 t
  funext j
  show k1_pay1 (F := Ideal) (iblk1 V c 0 t) (iblk1 V c 1 t) j
    = nodeMul (V c main_arg1) (V c main_v6) (((cfg1.win 2).blk t).view.emb j)
  refine (BlockProduct.stored_apply' (iblk1 V c 0 t) (iblk1 V c 1 t) j).trans ?_
  unfold nodeMul
  refine Finset.sum_congr rfl fun k _ => ?_
  have hj0 : (j 0).val < 512 := (j 0).isLt
  have hj1 : (j 1).val < 16 := (j 1).isLt
  have hk : k.val < 8192 := k.isLt
  have ha : iblk1 V c 0 t (ix2 (j 0) k) = V c main_arg1 (ix2 ((((cfg1.win 2).blk t).view.emb j) 0) k) := by
    show V c main_arg1 (((cfg1.win 0).blk t).view.emb (ix2 (j 0) k)) = _
    refine congrArg (V c main_arg1) (funext fun a => Fin.ext ?_)
    match a with
    | ⟨0, _⟩ => show win1_0.index t (0 : Fin 2) * 512 + 1 * (j 0).val = win1_2.index t (0 : Fin 2) * 512 + 1 * (j 0).val; omega
    | ⟨1, _⟩ => show win1_0.index t (1 : Fin 2) * 8192 + 1 * k.val = k.val; omega
  have hb : iblk1 V c 1 t (ix2 k (j 1)) = V c main_v6 (ix2 k ((((cfg1.win 2).blk t).view.emb j) 1)) := by
    show V c main_v6 (((cfg1.win 1).blk t).view.emb (ix2 k (j 1))) = _
    refine congrArg (V c main_v6) (funext fun a => Fin.ext ?_)
    match a with
    | ⟨0, _⟩ => show win1_1.index t (0 : Fin 2) * 8192 + 1 * k.val = k.val; omega
    | ⟨1, _⟩ => show win1_1.index t (1 : Fin 2) * 16 + 1 * (j 1).val = win1_2.index t (1 : Fin 2) * 16 + 1 * (j 1).val; omega
  rw [ha, hb]

/-- An index of the result is in point t's block iff each coordinate is in the block's range on its axis. -/
theorem mem_blk1 (t : Fin cfg1.N) (i : S8192x16.Idx) :
    i ∈ ((cfg1.win 2).blk t).view.set ↔ ∀ a : Fin 2, win1_2.index t a * S512x16.size a ≤ (i a).val ∧ (i a).val < win1_2.index t a * S512x16.size a + S512x16.size a := by
  show i ∈ ((View.whole main_v7).slice (win1_2.rect t)).set ↔ _
  rw [View.set_slice_whole, Rect.mem_set_unit]
  exact Iff.rfl

/-- The 16 blocks of 512 rows tile the 8192 rows: row i is in block i / 512. -/
theorem cover1 (i : S8192x16.Idx) : ∃ t : Fin cfg1.N, (cfg1.win 2).flush t = true ∧ i ∈ ((cfg1.win 2).blk t).view.set := by
  have hi0 : (i 0).val < 8192 := (i 0).isLt
  have hi1 : (i 1).val < 16 := (i 1).isLt
  obtain ⟨t, ht⟩ : ∃ t : Fin cfg1.N, t.val = (i 0).val / 512 :=
    ⟨⟨(i 0).val / 512, by show _ < grid1.N; rw [N_1]; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 16 ≤ (i 1).val ∧ (i 1).val < win1_2.index t (1 : Fin 2) * 16 + 16; omega

/-- So after the launch the result array holds the whole product. -/
theorem array1 (c : Dev nD) : (dat1 V c).arrAt 2 cfg1.N = nodeMul (V c main_arg1) (V c main_v6) :=
  (dat1 V c).arrAt_eq_of_cover 2 (nodeMul (V c main_arg1) (V c main_v6)) (fun t _ => flushed1 V c t) cover1

end Cert.KernelIdeal.Blocks

end
-- ==== Proof.HostSide.lean ====
/-
  What each launch finds in its buffers, and so what the result buffer ends holding.

  Before the first launch the host forms T = X · W (a plain sum over the 16 input channels on the extended
  reals, whatever precision the product was asked for) and narrows it, which changes nothing here. The first
  launch reads the inverse wavelet matrix B as launched and T, and leaves S = B · T.

  Before the second launch the host lays the filter f down a column, repeats that column across the 16
  channels, so that entry (k, c) of the repeated array is f[k], multiplies it into S entry by entry, giving
  f[k] · S[k, c], and narrows. The second launch reads the wavelet matrix A as launched and that scaled array,
  and leaves A · (diag f · S): the layer.
-/
import proofs.«143403_j67516885893333_2_alg».proof.Proof.Gen.KernelIdeal.Frame
import proofs.«143403_j67516885893333_2_alg».proof.Proof.Blocks
import proofs.«143403_j67516885893333_2_alg».proof.Proof.WaveletSpec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen Cert.Wavelet
open Idealize.ShloMosaic Idealize.ShloMosaic.TcCoe Idealize.ShloMosaic.ValueIdx Idealize.SL.Sem Idealize.ShloMosaic.StableHlo

/-! ## The host's product X · W read at an index -/

theorem lhs_row (i : S8192x16.Idx) (p : dot_S8192x16_S16x16_S8192x16_1_0_0_1_n_n.contr.Idx) :
    (dot_S8192x16_S16x16_S8192x16_1_0_0_1_n_n.lhsIdx i p 0).val = (i 0).val := by
  unfold DotDims.lhsIdx
  rw [dif_neg (show ¬(0 : Fin S8192x16.rank) ∈ dot_S8192x16_S16x16_S8192x16_1_0_0_1_n_n.lhsBatch by decide),
    dif_pos (show (0 : Fin S8192x16.rank) ∈ dot_S8192x16_S16x16_S8192x16_1_0_0_1_n_n.lhsNonContracting by decide)]
  rfl
theorem lhs_col (i : S8192x16.Idx) (p : dot_S8192x16_S16x16_S8192x16_1_0_0_1_n_n.contr.Idx) :
    (dot_S8192x16_S16x16_S8192x16_1_0_0_1_n_n.lhsIdx i p 1).val = (p ⟨0, by decide⟩).val :=
  dot_S8192x16_S16x16_S8192x16_1_0_0_1_n_n.lhsIdx_val_of_single rfl i p
theorem rhs_row (i : S8192x16.Idx) (p : dot_S8192x16_S16x16_S8192x16_1_0_0_1_n_n.contr.Idx) :
    (dot_S8192x16_S16x16_S8192x16_1_0_0_1_n_n.rhsIdx i p 0).val = (p ⟨0, by decide⟩).val :=
  dot_S8192x16_S16x16_S8192x16_1_0_0_1_n_n.rhsIdx_val_of_single rfl i p
theorem rhs_col (i : S8192x16.Idx) (p : dot_S8192x16_S16x16_S8192x16_1_0_0_1_n_n.contr.Idx) :
    (dot_S8192x16_S16x16_S8192x16_1_0_0_1_n_n.rhsIdx i p 1).val = (i 1).val := by
  unfold DotDims.rhsIdx
  rw [dif_neg (show ¬(1 : Fin S16x16.rank) ∈ dot_S8192x16_S16x16_S8192x16_1_0_0_1_n_n.rhsBatch by decide),
    dif_pos (show (1 : Fin S16x16.rank) ∈ dot_S8192x16_S16x16_S8192x16_1_0_0_1_n_n.rhsNonContracting by decide)]
  rfl

/-- The host's product of X and W, under any precision request and then narrowed, is T = X · W: entry (j, c) is
    the sum over the 16 input channels l of X[j, l] · W[l, c]. -/
theorem first_product (prec : Option ContractPrecision) (x : FVec Ideal S8192x16 .f32) (w : FVec Ideal S16x16 .f32) :
    (truncf .bf16 (Host.dotGeneral (F := Ideal) dot_S8192x16_S16x16_S8192x16_1_0_0_1_n_n prec x w) bitsLt_bf16_f32 : S8192x16.Idx → EReal)
      = transformed x w := by
  funext i
  show Host.dotGeneral (F := Ideal) dot_S8192x16_S16x16_S8192x16_1_0_0_1_n_n prec x w i = transformed x w i
  unfold transformed
  simp only [Host.dotGeneral]
  rw [Ideal.dotGeneral_apply, ← Equiv.sum_comp (contrEquiv1 dot_S8192x16_S16x16_S8192x16_1_0_0_1_n_n 16 rfl rfl).symm]
  refine Finset.sum_congr rfl fun k _ => ?_
  have hk := contrEquiv1_symm_val dot_S8192x16_S16x16_S8192x16_1_0_0_1_n_n 16 rfl rfl k
  have el : dot_S8192x16_S16x16_S8192x16_1_0_0_1_n_n.lhsIdx i
      ((contrEquiv1 dot_S8192x16_S16x16_S8192x16_1_0_0_1_n_n 16 rfl rfl).symm k) = ix2 (i 0) k := funext fun d => Fin.ext (by
    match d with
    | ⟨0, _⟩ => exact lhs_row _ _
    | ⟨1, _⟩ => exact (lhs_col _ _).trans hk)
  have er : dot_S8192x16_S16x16_S8192x16_1_0_0_1_n_n.rhsIdx i
      ((contrEquiv1 dot_S8192x16_S16x16_S8192x16_1_0_0_1_n_n 16 rfl rfl).symm k) = ix2 k (i 1) := funext fun d => Fin.ext (by
    match d with
    | ⟨0, _⟩ => exact (rhs_row _ _).trans hk
    | ⟨1, _⟩ => exact rhs_col _ _)
  rw [el, er]
  rfl

/-! ## The filter laid down a column, repeated across the channels, multiplied in -/

/-- Entry (k, c) of the filter repeated across the channels, times s[k, c], narrowed: f[k] · s[k, c]. -/
theorem scaled (f : FVec Ideal S8192 .f32) (s : FVec Ideal S8192x16 .f32) :
    (truncf .bf16 (mulf (broadcastInDim S8192x16 ![0, 1] bcast_S8192x1_S8192x16_0_1 (broadcastInDim S8192x1 ![0] bcast_S8192_S8192x1_0 f)) s) bitsLt_bf16_f32 : S8192x16.Idx → EReal)
      = scaleRows f s := by
  funext j
  show (broadcastInDim S8192x16 ![0, 1] bcast_S8192x1_S8192x16_0_1 (broadcastInDim S8192x1 ![0] bcast_S8192_S8192x1_0 f)) j * s j = f (ix1 (j 0)) * s j
  rw [broadcastInDim_apply _ bcast_S8192x1_S8192x16_0_1 _ j (ix2 (j 0) (0 : Fin 1)) (fun a => match a with
      | ⟨0, _⟩ => by show (j 0).val = if (8192 : Nat) = 1 then 0 else (j 0).val; rw [if_neg (by decide)]
      | ⟨1, _⟩ => by show 0 = if (1 : Nat) = 1 then 0 else (j 1).val; rw [if_pos rfl]),
    broadcastInDim_apply _ bcast_S8192_S8192x1_0 f (ix2 (j 0) (0 : Fin 1)) (ix1 (j 0)) (fun a => match a with
      | ⟨0, _⟩ => by show (j 0).val = if (8192 : Nat) = 1 then 0 else (j 0).val; rw [if_neg (by decide)])]

/-! ## The buffers at each launch's entry -/

variable (m : (ℓ : Loc nD τ sig) → Buf (Elt Ideal) ℓ) (ρ : Dev nD → PrngReg)

/-- The first launch finds the inverse wavelet matrix as launched. -/
theorem entry0_big (c : Dev nD) : V1 m ρ c main_arg2 = m ((c : Thread nD τ).loc main_arg2) := by
  show StableHlo.after hostOps0 (W0 m ρ c) (Proc.devRef .tc main_arg2) = _
  after_results

/-- … and T = X · W in its second operand. -/
theorem entry0_small (c : Dev nD) :
    (V1 m ρ c main_v1 : S8192x16.Idx → EReal) = transformed (m ((c : Thread nD τ).loc main_arg0)) (m ((c : Thread nD τ).loc main_arg3)) := by
  refine Eq.trans ?_ (first_product (some .fp32) (m ((c : Thread nD τ).loc main_arg0)) (m ((c : Thread nD τ).loc main_arg3)))
  show StableHlo.after hostOps0 (W0 m ρ c) (Proc.devRef .tc main_v1) = _
  after_results

/-- After the first launch its result buffer holds S = B · T. -/
theorem spectral (c : Dev nD) :
    (W2 m ρ c (Proc.devRef .tc main_v2) : S8192x16.Idx → EReal)
      = nodeMul (m ((c : Thread nD τ).loc main_arg2)) (transformed (m ((c : Thread nD τ).loc main_arg0)) (m ((c : Thread nD τ).loc main_arg3))) := by
  show W2 m ρ c (Proc.devRef .tc (Pipeline.arrRef spec0 2)) = _
  rw [W2_arr m ρ c 2, Blocks.array0 (V1 m ρ) c, entry0_big, entry0_small]

/-- The filter is untouched up to the second stretch. -/
theorem filter_kept (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results

/-- The second launch finds the wavelet matrix as launched. -/
theorem entry1_big (c : Dev nD) : V3 m ρ c main_arg1 = m ((c : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-- … and diag f · S in its second operand. -/
theorem entry1_small (c : Dev nD) :
    (V3 m ρ c main_v6 : S8192x16.Idx → EReal)
      = scaleRows (m ((c : Thread nD τ).loc main_arg4))
          (nodeMul (m ((c : Thread nD τ).loc main_arg2)) (transformed (m ((c : Thread nD τ).loc main_arg0)) (m ((c : Thread nD τ).loc main_arg3)))) := by
  refine Eq.trans ?_ ((scaled (W2 m ρ c (Proc.devRef .tc main_arg4)) (W2 m ρ c (Proc.devRef .tc main_v2))).trans ?_)
  · show StableHlo.after hostOps1 (W2 m ρ c) (Proc.devRef .tc main_v6) = _
    after_results
  · rw [spectral m ρ c, filter_kept m ρ c]

/-- THE RESULT: after the second launch the result buffer holds A · (diag f · (B · (X · W))). -/
theorem result (c : Dev nD) :
    (W4 m ρ c (Proc.devRef .tc main_v7) : S8192x16.Idx → EReal)
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  show W4 m ρ c (Proc.devRef .tc (Pipeline.arrRef spec1 2)) = _
  rw [W4_arr m ρ c 2, Blocks.array1 (V3 m ρ) c, entry1_big, entry1_small]
  rfl

end Cert.KernelIdeal.HostSide

end
-- ==== Proof.RefValue.lean ====
/-
  The reference computes the layer with the filter on the columns of the wavelet matrix.

  Its six operations, read one at a time at an index: T = X · W; S = B · T; the filter laid along a row and
  repeated down the rows, so that entry (i, k) of the repeated array is f[k]; the wavelet matrix times that,
  entry by entry, which scales column k by f[k]; and the product of the scaled matrix with S. Each product is a
  plain sum over the contracted axis on the extended reals. So the result is (A · diag f) · (B · (X · W)), and by
  associativity of the product that is A · (diag f · (B · (X · W))).
-/
import proofs.«143403_j67516885893333_2_alg».proof.Proof.Gen.ReferenceIdeal.Read
import proofs.«143403_j67516885893333_2_alg».proof.Proof.WaveletSpec

noncomputable section

namespace Cert.ReferenceIdeal.RefValue

open Cert.ReferenceIdeal Cert.ReferenceIdeal.Gen Cert.ReferenceIdeal.Read
open Idealize.ShloMosaic Idealize.ShloMosaic.ValueIdx Cert.Wavelet

/-! ## The operand indices of the three products, and of the repeated filter, by coordinates -/

theorem lidx0 (i : S8192x16.Idx) (k : Fin 16) : lidx_main_v0 i k = ix2 (i 0) k :=
  funext fun a => by match a with | ⟨0, _⟩ => rfl | ⟨1, _⟩ => rfl
theorem ridx0 (i : S8192x16.Idx) (k : Fin 16) : ridx_main_v0 i k = ix2 k (i 1) :=
  funext fun a => by match a with | ⟨0, _⟩ => rfl | ⟨1, _⟩ => rfl
theorem lidx1 (i : S8192x16.Idx) (k : Fin 8192) : lidx_main_v1 i k = ix2 (i 0) k :=
  funext fun a => by match a with | ⟨0, _⟩ => rfl | ⟨1, _⟩ => rfl
theorem ridx1 (i : S8192x16.Idx) (k : Fin 8192) : ridx_main_v1 i k = ix2 k (i 1) :=
  funext fun a => by match a with | ⟨0, _⟩ => rfl | ⟨1, _⟩ => rfl
theorem lidx5 (i : S8192x16.Idx) (k : Fin 8192) : lidx_main_v5 i k = ix2 (i 0) k :=
  funext fun a => by match a with | ⟨0, _⟩ => rfl | ⟨1, _⟩ => rfl
theorem ridx5 (i : S8192x16.Idx) (k : Fin 8192) : ridx_main_v5 i k = ix2 k (i 1) :=
  funext fun a => by match a with | ⟨0, _⟩ => rfl | ⟨1, _⟩ => rfl
/-- Entry (i, k) of the filter repeated down the rows reads the filter at k. -/
theorem fidx (i : S8192x8192.Idx) : idx_main_v2 (idx_main_v3 i) = ix1 (i 1) :=
  funext fun a => by match a with | ⟨0, _⟩ => rfl

/-! ## The stages -/

/-- The first product is T = X · W. -/
theorem stage_transformed (x0 : (⟨S8192x16, .f32⟩ : BufTy).Contents (Elt Ideal)) (x3 : (⟨S16x16, .f32⟩ : BufTy).Contents (Elt Ideal)) :
    val_main_v0 (F := Ideal) x0 x3 = transformed x0 x3 := by
  funext j
  rw [val_main_v0_apply]
  unfold transformed
  simp only [lidx0, ridx0]
  rfl

/-- The second is S = B · T. -/
theorem stage_spectral (x0 : (⟨S8192x16, .f32⟩ : BufTy).Contents (Elt Ideal)) (x2 : (⟨S8192x8192, .f32⟩ : BufTy).Contents (Elt Ideal))
    (x3 : (⟨S16x16, .f32⟩ : BufTy).Contents (Elt Ideal)) :
    val_main_v1 (F := Ideal) x0 x2 x3 = nodeMul x2 (transformed x0 x3) := by
  funext j
  rw [val_main_v1_apply, stage_transformed]
  unfold nodeMul
  simp only [lidx1, ridx1]
  rfl

/-- The wavelet matrix times the repeated filter, entry by entry, is A with column k scaled by f[k]. -/
theorem stage_scaled (x1 : (⟨S8192x8192, .f32⟩ : BufTy).Contents (Elt Ideal)) (x4 : (⟨S8192, .f32⟩ : BufTy).Contents (Elt Ideal)) :
    val_main_v4 (F := Ideal) x1 x4 = scaleCols x1 x4 := by
  funext j
  rw [val_main_v4_apply, val_main_v3_apply, val_main_v2_apply, fidx]
  rfl

/-- The result is (A · diag f) · (B · (X · W)). -/
theorem stage_result (x0 : (⟨S8192x16, .f32⟩ : BufTy).Contents (Elt Ideal)) (x1 x2 : (⟨S8192x8192, .f32⟩ : BufTy).Contents (Elt Ideal))
    (x3 : (⟨S16x16, .f32⟩ : BufTy).Contents (Elt Ideal)) (x4 : (⟨S8192, .f32⟩ : BufTy).Contents (Elt Ideal)) :
    val_main_v5 (F := Ideal) x0 x1 x2 x3 x4 = layerCols x0 x1 x2 x3 x4 := by
  funext i
  rw [val_main_v5_apply, stage_scaled, stage_spectral]
  simp only [lidx5, ridx5]
  rfl

/-- The reference's last stage is the layer with the filter on the rows of S: (A · diag f) · S = A · (diag f · S). -/
theorem result_eq (x0 : (⟨S8192x16, .f32⟩ : BufTy).Contents (Elt Ideal)) (x1 x2 : (⟨S8192x8192, .f32⟩ : BufTy).Contents (Elt Ideal))
    (x3 : (⟨S16x16, .f32⟩ : BufTy).Contents (Elt Ideal)) (x4 : (⟨S8192, .f32⟩ : BufTy).Contents (Elt Ideal)) :
    val_main_v5 (F := Ideal) x0 x1 x2 x3 x4 = layer x0 x1 x2 x3 x4 :=
  (stage_result x0 x1 x2 x3 x4).trans (layerCols_eq x0 x1 x2 x3 x4)

end Cert.ReferenceIdeal.RefValue

end
-- ==== Proof.lean ====
/-
  A graph-wavelet layer: out = A · diag(f) · B · X · W, with X the features [8192, 16], W the weights [16, 16],
  A the wavelet matrix and B its inverse [8192, 8192], f the diagonal filter [8192].

  The kernel forms T = X · W on the host, S = B · T in a first launch (16 blocks of 512 rows), scales row k of S
  by f[k] on the host, and multiplies A into that in a second launch. The reference scales column k of A by f[k]
  and multiplies the scaled matrix into S. With floats read as extended reals and every operation exact, both end
  at one function of the five arrays: the kernel at A · (diag f · S) directly, the reference at (A · diag f) · S,
  which is the same entry by entry because the product of three extended reals is associative. No input needs to
  be finite for that, so the precondition is never opened.

  The pieces: WaveletSpec (the layer as a function of the arrays, and the law); BlockProduct (one launch body's
  stored value at an entry); Blocks (each launch leaves the full product); HostSide (what each launch finds, hence
  the result buffer); KernelRun (the kernel's run with its result buffer named); RefValue (the reference's result
  is the layer). The idealization rewrote no operation, so the kernel's idealization claim has nothing to state.
-/
import proofs.«143403_j67516885893333_2_alg».proof.Defs
import proofs.«143403_j67516885893333_2_alg».proof.Proof.Gen.Kernel
import proofs.«143403_j67516885893333_2_alg».proof.Proof.Gen.Kernel.Skeleton
import proofs.«143403_j67516885893333_2_alg».proof.Proof.Gen.Kernel.Launch
import proofs.«143403_j67516885893333_2_alg».proof.Proof.Gen.Kernel.Points
import proofs.«143403_j67516885893333_2_alg».proof.Proof.Gen.Kernel.Frame
import proofs.«143403_j67516885893333_2_alg».proof.Proof.Gen.KernelIdeal
import proofs.«143403_j67516885893333_2_alg».proof.Proof.Gen.KernelIdeal.Skeleton
import proofs.«143403_j67516885893333_2_alg».proof.Proof.Gen.KernelIdeal.Launch
import proofs.«143403_j67516885893333_2_alg».proof.Proof.Gen.KernelIdeal.Points
import proofs.«143403_j67516885893333_2_alg».proof.Proof.Gen.KernelIdeal.Frame
import proofs.«143403_j67516885893333_2_alg».proof.Proof.Gen.ReferenceIdeal
import proofs.«143403_j67516885893333_2_alg».proof.Proof.Gen.ReferenceIdeal.Run
import proofs.«143403_j67516885893333_2_alg».proof.Proof.Gen.ReferenceIdeal.Read
import proofs.«143403_j67516885893333_2_alg».proof.Proof.Gen.Pre_finite_inputs
import proofs.«143403_j67516885893333_2_alg».proof.Proof.WaveletSpec
import proofs.«143403_j67516885893333_2_alg».proof.Proof.KernelRun
import proofs.«143403_j67516885893333_2_alg».proof.Proof.HostSide
import proofs.«143403_j67516885893333_2_alg».proof.Proof.RefValue
import Idealize.ShloMosaic.Adequacy
import Idealize.ShloMosaic.Init

noncomputable section

namespace Cert.Proof

open Idealize.ShloMosaic Idealize.SL.Sem Cert.Kernel

/-- The word-level kernel runs to the end without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel ends at A · (diag f · (B · (X · W))) of its arrays; the reference at (A · diag f) · (B · (X · W)) of
    arrays that agree with them; the two are one function by associativity of the product. -/
theorem algebraic : Cert.algebraic_KernelIdeal_ReferenceIdeal := by
  intro m ρ m' ρ' _ hagree
  refine ⟨fun c => Cert.Wavelet.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.HostSide.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
